-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x2048 .f32) (main_arg1 : FVec F S2048 .f32) (main_arg2 : FVec F S1024x2048 .f32) (main_arg3 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S_ : Shape := ⟨0, ![]⟩
abbrev S1x2048 : Shape := ⟨2, ![1, 2048]⟩
abbrev S1x1024 : Shape := ⟨2, ![1, 1024]⟩
abbrev S8192x1024 : Shape := ⟨2, ![8192, 1024]⟩
abbrev S1024x1024 : Shape := ⟨2, ![1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1024x2048, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8192x2048, .f32⟩
  | .hbm, ⟨7, _⟩ => ⟨S_, .i32⟩
  | .hbm, ⟨8, _⟩ => ⟨S_, .f32⟩
  | .hbm, ⟨9, _⟩ => ⟨S1024x2048, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .i32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S8192x2048_S8192x2048_000_000 : S8192x2048.Pads (![0, 0] : Fin 2 → Nat) ![0, 0] ![0, 0] S8192x2048
  h_S_ : 0 < S_.numel
  pads_S1024x2048_S1024x2048_000_000 : S1024x2048.Pads (![0, 0] : Fin 2 → Nat) ![0, 0] ![0, 0] S1024x2048
  pads_S2048_S2048_000 : S2048.Pads (![0] : Fin 1 → Nat) ![0] ![0] S2048
  shapeCasts_S2048_S1x2048 : S2048.ShapeCasts S1x2048
  pads_S1024_S1024_000 : S1024.Pads (![0] : Fin 1 → Nat) ![0] ![0] S1024
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .f32 = 32 ∨ (Rect.block (s := S1024x2048) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S_ : Shape := ⟨0, ![]⟩
abbrev S2048x1024 : Shape := ⟨2, ![2048, 1024]⟩
abbrev S1x2048 : Shape := ⟨2, ![1, 2048]⟩
abbrev S1x1024 : Shape := ⟨2, ![1, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 20
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1024x2048, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8192x2048, .f32⟩
  | .hbm, ⟨7, _⟩ => ⟨S2048x1024, .f32⟩
  | .hbm, ⟨8, _⟩ => ⟨S_, .i32⟩
  | .hbm, ⟨9, _⟩ => ⟨S_, .f32⟩
  | .hbm, ⟨10, _⟩ => ⟨S2048x1024, .f32⟩
  | .hbm, ⟨11, _⟩ => ⟨S_, .i32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S_, .i32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S8192x2048_S8192x2048_000_000 : S8192x2048.Pads (![0, 0] : Fin 2 → Nat) ![0, 0] ![0, 0] S8192x2048
  h_S_ : 0 < S_.numel
  transposes_S1024x2048_S2048x1024_1_0 : S1024x2048.Transposes [1, 0] S2048x1024
  pads_S2048x1024_S2048x1024_000_000 : S2048x1024.Pads (![0, 0] : Fin 2 → Nat) ![0, 0] ![0, 0] S2048x1024
  pads_S2048_S2048_000 : S2048.Pads (![0] : Fin 1 → Nat) ![0] ![0] S2048
  shapeCasts_S2048_S1x2048 : S2048.ShapeCasts S1x2048
  pads_S1024_S1024_000 : S1024.Pads (![0] : Fin 1 → Nat) ![0] ![0] S1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x2048.size a
  hwx0_0 : ∀ i : grid0.Coords, EltTy.bits .f32 = 32 ∨ (Rect.block (s := S8192x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x2048.size a
  hwx0_1 : ∀ i : grid0.Coords, EltTy.bits .f32 = 32 ∨ (Rect.block (s := S1x2048) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .f32 = 32 ∨ (Rect.block (s := S2048x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== Proof.ModLinear.lean ====
/-
  The modulated linear head, as one function of its four arrays.

  For a batch row `r` and a task column `q`

      head x θ γ b (r, q) = (∑ f, x (r, f) · θ f · γ (q, f)) + b q

  over the extended reals: row `r` of `x`, scaled feature by feature by `θ`, against row `q` of `γ`, plus the
  bias of column `q`. Both programs compute this entry; they differ in how the sum over the 2048 features is
  arranged. One computes it in one piece. The other computes the first 1024 features, then adds the last 1024 to
  that partial sum, starting from zero. The two arrangements agree by associativity of addition alone
  (`sum_halves`, `two_steps`): no distributivity and no cancellation is used, so the infinities cause no trouble
  and no finiteness of the inputs is needed.
-/
import Idealize.ShloMosaic.PureOps.Ideal
import Idealize.ShloMosaic.Lib.ValueIdx

noncomputable section

open scoped BigOperators

namespace Cert.ModLinear

open Idealize.ShloMosaic Idealize.ShloMosaic.ValueIdx

/-- Entry `(r, q)` of the head: the `θ`-scaled row `r` of `x` against row `q` of `γ`, plus `b q`. -/
def head (x : (⟨2, ![8192, 2048]⟩ : Shape).Idx → EReal) (θ : (⟨1, ![2048]⟩ : Shape).Idx → EReal)
    (γ : (⟨2, ![1024, 2048]⟩ : Shape).Idx → EReal) (b : (⟨1, ![1024]⟩ : Shape).Idx → EReal) :
    (⟨2, ![8192, 1024]⟩ : Shape).Idx → EReal :=
  fun i => (∑ f : Fin 2048, x (ix2 (i 0) f) * θ (ix1 f) * γ (ix2 (i 1) f)) + b (ix1 (i 1))

/-- Feature `f` of the first half, as a feature. -/
abbrev lo (f : Fin 1024) : Fin 2048 := ⟨f.val, by omega⟩
/-- Feature `f` of the second half, as a feature. -/
abbrev hi (f : Fin 1024) : Fin 2048 := ⟨1024 + f.val, by omega⟩

/-- A sum over the 2048 features is the sum over the first 1024 plus the sum over the last 1024. -/
theorem sum_halves (h : Fin 2048 → EReal) :
    ∑ f : Fin 2048, h f = ∑ f : Fin 1024, h (lo f) + ∑ f : Fin 1024, h (hi f) :=
  Fin.sum_univ_add (a := 1024) (b := 1024) h

/-- Accumulating the two halves in turn from zero, then adding the bias, is the whole sum plus the bias. -/
theorem two_steps (h : Fin 2048 → EReal) (β : EReal) :
    ((0 + ∑ f : Fin 1024, h (lo f)) + ∑ f : Fin 1024, h (hi f)) + β = (∑ f : Fin 2048, h f) + β := by
  rw [zero_add, sum_halves]

end Cert.ModLinear

end
-- ==== Proof.KernelEntry.lean ====
/-
  One entry of what the kernel's body stores.

  The body holds a block of 1024 batch rows `X` (1024 × 2048), the scale row `T` (1 × 2048), all of `γ` as `W`
  (1024 × 2048) and the bias row `B` (1 × 1024). It scales every row of `X` by `T`, multiplies the result by `W`
  transposed into a zero accumulator, and adds `B` to every row. Over the extended reals the two changes of float
  format are the identity, so entry `(p, q)` of the stored block is

      (∑ f, X (p, f) · T (0, f) · W (q, f)) + B (0, q).

  When `X` is the block of `x` whose rows start at row `base`, `T` reads `θ`, `W` is `γ` and `B` reads `b`, that is
  the head's entry `(base + p, q)` (`stored_eq_head`).
-/
import proofs.«163073_g2000103749768661_pallasbulk_655_25_alg».proof.Proof.Gen.KernelIdeal.Skeleton
import proofs.«163073_g2000103749768661_pallasbulk_655_25_alg».proof.Proof.ModLinear
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- A product with the second factor transposed, into the zero accumulator: entry `(p, q)` is row `p` of the first
    factor against row `q` of the second. -/
theorem rows_product (A B : FVec Ideal S1024x2048 .bf16) (p q : Fin 1024) :
    matmul dot_S1024x2048_S1024x2048_S1024x1024_1_1_0_0_n_n none A B (constant (F := Ideal) S1024x1024 .f32 0x00000000#32) (ix2 p q)
      = ∑ f : Fin 2048, A (ix2 p f) * B (ix2 q f) := by
  show FloatOps.matmul dot_S1024x2048_S1024x2048_S1024x1024_1_1_0_0_n_n none A B _ (ix2 p q) = _
  rw [Ideal.matmul_constant_zero_apply,
    ← Equiv.sum_comp (contrEquiv1 dot_S1024x2048_S1024x2048_S1024x1024_1_1_0_0_n_n 2048 rfl rfl).symm]
  refine Finset.sum_congr rfl fun f _ => ?_
  have cf := contrEquiv1_symm_val dot_S1024x2048_S1024x2048_S1024x1024_1_1_0_0_n_n 2048 rfl rfl f
  have l : (dot_S1024x2048_S1024x2048_S1024x1024_1_1_0_0_n_n).lhsIdx (ix2 p q) ((contrEquiv1 dot_S1024x2048_S1024x2048_S1024x1024_1_1_0_0_n_n 2048 rfl rfl).symm f) = ix2 p f := by
    funext ax; apply Fin.ext
    match ax with
    | ⟨0, _⟩ => simp [DotDims.lhsIdx, dot_S1024x2048_S1024x2048_S1024x1024_1_1_0_0_n_n]; rfl
    | ⟨1, _⟩ => simp [DotDims.lhsIdx, dot_S1024x2048_S1024x2048_S1024x1024_1_1_0_0_n_n]; exact cf
  have r : (dot_S1024x2048_S1024x2048_S1024x1024_1_1_0_0_n_n).rhsIdx (ix2 p q) ((contrEquiv1 dot_S1024x2048_S1024x2048_S1024x1024_1_1_0_0_n_n 2048 rfl rfl).symm f) = ix2 q f := by
    funext ax; apply Fin.ext
    match ax with
    | ⟨0, _⟩ => simp [DotDims.rhsIdx, dot_S1024x2048_S1024x2048_S1024x1024_1_1_0_0_n_n]; rfl
    | ⟨1, _⟩ => simp [DotDims.rhsIdx, dot_S1024x2048_S1024x2048_S1024x1024_1_1_0_0_n_n]; exact cf
  rw [l, r]

/-- Entry `(p, q)` of the block the body stores. -/
theorem stored_apply (X : Vec Ideal S1024x2048 .f32) (T : Vec Ideal S1x2048 .f32) (W : Vec Ideal S1024x2048 .f32)
    (B : Vec Ideal S1x1024 .f32) (p q : Fin 1024) :
    k0_pay1 X T W B (ix2 p q)
      = (∑ f : Fin 2048, X (ix2 p f) * T (ix2 (0 : Fin 1) f) * W (ix2 q f)) + B (ix2 (0 : Fin 1) q) := by
  unfold k0_pay1
  simp only [shapeCast_self]
  rw [addf_apply, rows_product, broadcastTo_1b_ab_apply]
  refine congrArg (· + B (ix2 (0 : Fin 1) q)) (Finset.sum_congr rfl fun f _ => ?_)
  rw [truncf_apply, truncf_apply, mulf_apply, broadcastTo_1b_ab_apply]

/-- The stored block is the head's block: with `X` rows `base …` of `x`, `T` reading `θ`, `W` being `γ` and `B` reading
    `b`, entry `(p, q)` of the stored block is the head at `(base + p, q)`. -/
theorem stored_eq_head (X : Vec Ideal S1024x2048 .f32) (T : Vec Ideal S1x2048 .f32) (W : Vec Ideal S1024x2048 .f32)
    (B : Vec Ideal S1x1024 .f32) (x : S8192x2048.Idx → EReal) (θ : S2048.Idx → EReal) (γ : S1024x2048.Idx → EReal)
    (b : S1024.Idx → EReal) (base : ℕ)
    (hX : ∀ (p : Fin 1024) (f : Fin 2048) (r : Fin 8192), r.val = base + p.val → X (ix2 p f) = x (ix2 r f))
    (hT : ∀ f : Fin 2048, T (ix2 (0 : Fin 1) f) = θ (ix1 f))
    (hW : ∀ (q : Fin 1024) (f : Fin 2048), W (ix2 q f) = γ (ix2 q f))
    (hB : ∀ q : Fin 1024, B (ix2 (0 : Fin 1) q) = b (ix1 q))
    (p q : Fin 1024) (r : Fin 8192) (hr : r.val = base + p.val) :
    k0_pay1 X T W B (ix2 p q) = Cert.ModLinear.head x θ γ b (ix2 r q) := by
  rw [stored_apply, hB q]
  show _ = (∑ f : Fin 2048, x (ix2 r f) * θ (ix1 f) * γ (ix2 q f)) + b (ix1 q)
  refine congrArg (· + b (ix1 q)) (Finset.sum_congr rfl fun f _ => ?_)
  rw [hX p f r hr, hT f, hW q f]

end Cert.KernelIdeal.Entry

end
-- ==== Proof.LibPadNone.lean ====
/-
  A pad that pads nothing.

  A host `pad` whose low and interior amounts are zero on every axis and whose result has the operand's own shape
  reads, at every index, the operand at that index: it is the operand. (A padding request whose widths are all zero
  lowers to such a pad.)
-/
import Idealize.ShloMosaic.Lib.KernelVsHost

noncomputable section

namespace Cert.LibPadNone

open Idealize.ShloMosaic

/-- A pad with no low padding and no interior padding, into the operand's own shape, is the operand, whatever the
    padding value and the high amounts. -/
theorem pad_none {s : Shape} {α : Type} (lo hi interior : Fin s.rank → Nat) (hlo : ∀ a, lo a = 0)
    (hint : ∀ a, interior a = 0) (x : s.Idx → α) {u : Shape} (v : u.Idx → α) (h : s.Pads lo hi interior s)
    (hu : 0 < u.numel) : pad s lo hi interior x v h hu = x := by
  funext j
  refine pad_apply_of_inside lo hi interior x v h hu j j fun a => ?_
  have e : a.cast h.1 = a := Fin.ext rfl
  rw [e, hlo a, hint a]
  omega

end Cert.LibPadNone

end
-- ==== Proof.KernelArrays.lean ====
/-
  The four arrays as the kernel's region finds them.

  Before the region the program pads each argument by zero on every side, which changes nothing
  (`Cert.LibPadNone.pad_none`), and views the scale vector and the bias vector as one-row matrices. So the region's
  batch array is `x` and its weight array is `γ`, and the one row of its scale array reads `θ`, the one row of its
  bias array `b`.
-/
import proofs.«163073_g2000103749768661_pallasbulk_655_25_alg».proof.Proof.Gen.KernelIdeal.Frame
import proofs.«163073_g2000103749768661_pallasbulk_655_25_alg».proof.Proof.LibPadNone
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.ValueIdx
open Idealize.ShloMosaic.TcCoe Idealize.SL.Sem Cert.LibPadNone

variable {F : FTy → Type} [FloatOps F] (m : (ℓ : Loc nD τ sig) → Buf (Elt F) ℓ)

/-- The batch array the region reads is `x`. -/
theorem batch_found (c : Dev nD) :
    (V m c main_v0 : S8192x2048.Idx → Elt F .f32) = m ((c : Thread nD τ).loc main_arg0) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact pad_none (s := S8192x2048) (![0, 0]) (![0, 0]) (![0, 0]) (by decide) (by decide) _ _ pads_S8192x2048_S8192x2048_000_000 h_S_

/-- The weight array the region reads is `γ`. -/
theorem weights_found (c : Dev nD) :
    (V m c main_v1 : S1024x2048.Idx → Elt F .f32) = m ((c : Thread nD τ).loc main_arg2) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact pad_none (s := S1024x2048) (![0, 0]) (![0, 0]) (![0, 0]) (by decide) (by decide) _ _ pads_S1024x2048_S1024x2048_000_000 h_S_

/-- The one row of the scale array the region reads is `θ`. -/
theorem scale_found (c : Dev nD) (f : Fin 2048) :
    (V m c main_v3 : S1x2048.Idx → Elt F .f32) (ix2 (0 : Fin 1) f) = m ((c : Thread nD τ).loc main_arg1) (ix1 f) := by
  have e : (V m c main_v3 : S1x2048.Idx → Elt F .f32)
      = shapeCast S1x2048 (m ((c : Thread nD τ).loc main_arg1) : S2048.Idx → Elt F .f32) shapeCasts_S2048_S1x2048 := by
    dsimp only [V]
    simp only [hostOps0, hostOps0_1, hostOps0_2, hostOps0_3, hostOps0_4, hostOps0_5, hostOps0_6, hostOps0_7, hostOps0_8,
    List.flatten_cons, List.flatten_nil, List.append_nil, List.cons_append, List.nil_append]
    after_results
    exact congrArg (fun y => shapeCast S1x2048 y shapeCasts_S2048_S1x2048)
      (pad_none (s := S2048) (![0]) (![0]) (![0]) (by decide) (by decide) (m ((c : Thread nD τ).loc main_arg1)) _
        pads_S2048_S2048_000 h_S_)
  rw [e, shapeCast_a_1a_apply]

/-- The one row of the bias array the region reads is `b`. -/
theorem bias_found (c : Dev nD) (q : Fin 1024) :
    (V m c main_v5 : S1x1024.Idx → Elt F .f32) (ix2 (0 : Fin 1) q) = m ((c : Thread nD τ).loc main_arg3) (ix1 q) := by
  have e : (V m c main_v5 : S1x1024.Idx → Elt F .f32)
      = shapeCast S1x1024 (m ((c : Thread nD τ).loc main_arg3) : S1024.Idx → Elt F .f32) shapeCasts_S1024_S1x1024 := by
    dsimp only [V]
    simp only [hostOps0, hostOps0_1, hostOps0_2, hostOps0_3, hostOps0_4, hostOps0_5, hostOps0_6, hostOps0_7, hostOps0_8,
    List.flatten_cons, List.flatten_nil, List.append_nil, List.cons_append, List.nil_append]
    after_results
    exact congrArg (fun y => shapeCast S1x1024 y shapeCasts_S1024_S1x1024)
      (pad_none (s := S1024) (![0]) (![0]) (![0]) (by decide) (by decide) (m ((c : Thread nD τ).loc main_arg3)) _
        pads_S1024_S1024_000 h_S_)
  rw [e, shapeCast_a_1a_apply]

end Cert.KernelIdeal.Arrays

end
-- ==== Proof.KernelValue.lean ====
/-
  The kernel's result array is the head of its four arguments.

  The grid has 8 points; point `t` works on batch rows `1024 t … 1024 t + 1023`: it reads that block of `x`, all of
  the scale row, all of `γ` and all of the bias row, and writes back the block of the result with the same rows. By
  `Cert.KernelIdeal.Entry.stored_eq_head` what it writes back is that block of the head (`flushed_eq`). Every row of
  the result lies in exactly one such block, the one of point `row / 1024` (`covered`), so after the run the whole
  result array is the head (`final`, `run`).
-/
import proofs.«163073_g2000103749768661_pallasbulk_655_25_alg».proof.Proof.Gen.KernelIdeal.Value
import proofs.«163073_g2000103749768661_pallasbulk_655_25_alg».proof.Proof.KernelEntry
import proofs.«163073_g2000103749768661_pallasbulk_655_25_alg».proof.Proof.KernelArrays
import proofs.«163073_g2000103749768661_pallasbulk_655_25_alg».proof.Proof.ModLinear

noncomputable section

namespace Cert.KernelIdeal.Result

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-buffer access. -/
theorem hz : (![0, 0] : Fin 2 → Nat) = fun _ => 0 := funext fun a => by fin_cases a <;> rfl

/-- The head of the four argument arrays as launched, as contents of the result array. -/
abbrev headOf (c : Dev nD) : Buf (Elt Ideal) ((c : Thread nD τ).loc main_v6) :=
  Cert.ModLinear.head (m ((c : Thread nD τ).loc main_arg0)) (m ((c : Thread nD τ).loc main_arg1))
    (m ((c : Thread nD τ).loc main_arg2)) (m ((c : Thread nD τ).loc main_arg3))

/-- The block indices over the 8 points: the batch block and the result block of point `t` are block `t` of their
    rows; the scale row, the weights and the bias row are always their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the batch block at point `t` is row `1024 t + p` of `x`. -/
theorem batch_block (c : Dev nD) (t : Fin cfg0.N) (p : Fin 1024) (f : Fin 2048) (r : Fin 8192)
    (hr : r.val = 1024 * t.val + p.val) :
    (iblk m c 0 t : Vec Ideal S1024x2048 .f32) (ix2 p f) = m ((c : Thread nD τ).loc main_arg0) (ix2 r f) := by
  obtain ⟨e0, e1, -⟩ := idx_facts t
  show V m c main_v0 (((cfg0.win 0).blk t).view.emb (ix2 p f)) = _
  rw [Arrays.batch_found]
  refine congrArg _ (funext fun a => Fin.ext ?_)
  match a with
  | ⟨0, _⟩ => show win0_0.index t (0 : Fin 2) * 1024 + 1 * p.val = r.val; omega
  | ⟨1, _⟩ => show win0_0.index t (1 : Fin 2) * 2048 + 1 * f.val = f.val; omega

/-- The scale block at any point reads `θ`. -/
theorem scale_block (c : Dev nD) (t : Fin cfg0.N) (f : Fin 2048) :
    (iblk m c 1 t : Vec Ideal S1x2048 .f32) (ix2 (0 : Fin 1) f) = m ((c : Thread nD τ).loc main_arg1) (ix1 f) := by
  obtain ⟨-, -, e2, e3, -⟩ := idx_facts t
  show V m c main_v3 (((cfg0.win 1).blk t).view.emb (ix2 (0 : Fin 1) f)) = _
  rw [← Arrays.scale_found m c f]
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * f.val = f.val; omega

/-- The weight block at any point is `γ`. -/
theorem weights_block (c : Dev nD) (t : Fin cfg0.N) (q : Fin 1024) (f : Fin 2048) :
    (iblk m c 2 t : Vec Ideal S1024x2048 .f32) (ix2 q f) = m ((c : Thread nD τ).loc main_arg2) (ix2 q f) := by
  obtain ⟨-, -, -, -, e4, e5, -⟩ := idx_facts t
  show V m c main_v1 (((cfg0.win 2).blk t).view.emb (ix2 q f)) = _
  rw [Arrays.weights_found]
  refine congrArg _ (funext fun a => Fin.ext ?_)
  match a with
  | ⟨0, _⟩ => show win0_2.index t (0 : Fin 2) * 1024 + 1 * q.val = q.val; omega
  | ⟨1, _⟩ => show win0_2.index t (1 : Fin 2) * 2048 + 1 * f.val = f.val; omega

/-- The bias block at any point reads `b`. -/
theorem bias_block (c : Dev nD) (t : Fin cfg0.N) (q : Fin 1024) :
    (iblk m c 3 t : Vec Ideal S1x1024 .f32) (ix2 (0 : Fin 1) q) = m ((c : Thread nD τ).loc main_arg3) (ix1 q) := by
  obtain ⟨-, -, -, -, -, -, e6, e7, -⟩ := idx_facts t
  show V m c main_v5 (((cfg0.win 3).blk t).view.emb (ix2 (0 : Fin 1) q)) = _
  rw [← Arrays.bias_found m c q]
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-- What point `t` writes back is block `t` of the head. -/
theorem flushed_eq (c : Dev nD) (t : Fin cfg0.N) :
    (dats m 0 c).flushed 4 t = ((cfg0.win 4).blk t).view.read (Elt Ideal) (headOf m c) := by
  rw [Cert.KernelIdeal.Value.flushed4]
  unfold out0_4
  rw [View.canon_unit_zero hz]
  simp only [View.ld_unit_zero (S := S1024x2048) hz, View.ld_unit_zero (S := S1x2048) hz,
    View.ld_unit_zero (S := S1x1024) hz]
  obtain ⟨-, -, -, -, -, -, -, -, e8, e9⟩ := idx_facts t
  have hN : t.val < 8 := lt_of_lt_of_eq t.isLt N_0
  funext j
  obtain ⟨p, q, rfl⟩ : ∃ (p : Fin 1024) (q : Fin 1024), j = ix2 p q := ⟨j 0, j 1, eq_ix2 j⟩
  show k0_pay1 (iblk m c 0 t) (iblk m c 1 t) (iblk m c 2 t) (iblk m c 3 t) (ix2 p q)
    = headOf m c (((cfg0.win 4).blk t).view.emb (ix2 p q))
  have hrow : ((cfg0.win 4).blk t).view.emb (ix2 p q) = ix2 (⟨1024 * t.val + p.val, by omega⟩ : Fin 8192) q := by
    funext a; apply Fin.ext
    match a with
    | ⟨0, _⟩ => show win0_4.index t (0 : Fin 2) * 1024 + 1 * p.val = 1024 * t.val + p.val; omega
    | ⟨1, _⟩ => show win0_4.index t (1 : Fin 2) * 1024 + 1 * q.val = q.val; omega
  rw [hrow]
  exact Entry.stored_eq_head (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) (1024 * t.val)
    (batch_block m c t) (scale_block m c t) (weights_block m c t) (bias_block m c t) p q _ rfl

/-- An index of the result array is in point `t`'s block iff each coordinate is in the block's range on its axis. -/
theorem mem_blk (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6).slice (win0_4.rect t)).set ↔ _
  rw [View.set_slice_whole, Rect.mem_set_unit]
  exact Iff.rfl

/-- Every index of the result array is in the block of the point its row belongs to. -/
theorem covered (i : S8192x1024.Idx) :
    ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- After the run the result array is the head. -/
theorem final (c : Dev nD) : (dats m 0 c).arrAt 4 cfg0.N = headOf m c :=
  (dats m 0 c).arrAt_eq_of_cover 4 (headOf m c) (fun t _ => flushed_eq m c t) covered

/-- The run, read: the result array at the head of the arguments, the arguments unchanged. -/
theorem run : θ_run defs (onTc (τ := τ) (main (F := Ideal))) ⟨m, fun _ => 0, ρ⟩ fun r => ∀ c : Dev nD,
      r.2.mem ((c : Thread nD τ).loc main_v6) = headOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Result

end
-- ==== Proof.ReferenceEntry.lean ====
/-
  One entry of each block the reference's body stores.

  The reference walks the 2048 features in two halves of 1024. Its body holds a block of 512 batch rows of one half
  `X` (512 × 1024), that half of the scale row `T` (1 × 1024), that half of `γ` transposed `W` (1024 × 1024:
  feature by task) and the bias row `B` (1 × 1024), and keeps a 512 × 1024 accumulator between grid points. At the
  first half it stores zeros into the accumulator (`zeros_apply`); at either half it adds the half's product to the
  accumulator (`step_apply`); at the second half it stores the accumulator plus the bias as the result
  (`result_apply`). Over the extended reals, entry `(p, q)`:

      the accumulator step:   acc (p, q) + ∑ f, X (p, f) · T (0, f) · W (f, q)
      the result:             acc (p, q) + B (0, q).

  Chained over the two halves of one block of rows — zeros, a step over the first 1024 features, a step over the last
  1024, the bias — that is the head's entry (`two_halves_eq_head`): the sum over all 2048 features split in two.
-/
import proofs.«163073_g2000103749768661_pallasbulk_655_25_alg».proof.Proof.Gen.ReferenceIdeal.Skeleton
import proofs.«163073_g2000103749768661_pallasbulk_655_25_alg».proof.Proof.ModLinear
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Entry

open Cert.ReferenceIdeal Cert.ReferenceIdeal.Gen Idealize.ShloMosaic Idealize.ShloMosaic.ValueIdx

/-- A plain matrix product into the zero accumulator: entry `(p, q)` is row `p` of the first factor against column
    `q` of the second. -/
theorem row_column_product (A : FVec Ideal S512x1024 .f32) (B : FVec Ideal S1024x1024 .f32) (p : Fin 512) (q : Fin 1024) :
    matmul dot_S512x1024_S1024x1024_S512x1024_1_0_0_1_n_n none A B (constant (F := Ideal) S512x1024 .f32 0x00000000#32) (ix2 p q)
      = ∑ f : Fin 1024, A (ix2 p f) * B (ix2 f q) := by
  show FloatOps.matmul dot_S512x1024_S1024x1024_S512x1024_1_0_0_1_n_n none A B _ (ix2 p q) = _
  rw [Ideal.matmul_constant_zero_apply,
    ← Equiv.sum_comp (contrEquiv1 dot_S512x1024_S1024x1024_S512x1024_1_0_0_1_n_n 1024 rfl rfl).symm]
  refine Finset.sum_congr rfl fun f _ => ?_
  have cf := contrEquiv1_symm_val dot_S512x1024_S1024x1024_S512x1024_1_0_0_1_n_n 1024 rfl rfl f
  have l : (dot_S512x1024_S1024x1024_S512x1024_1_0_0_1_n_n).lhsIdx (ix2 p q) ((contrEquiv1 dot_S512x1024_S1024x1024_S512x1024_1_0_0_1_n_n 1024 rfl rfl).symm f) = ix2 p f := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact cf
  have r : (dot_S512x1024_S1024x1024_S512x1024_1_0_0_1_n_n).rhsIdx (ix2 p q) ((contrEquiv1 dot_S512x1024_S1024x1024_S512x1024_1_0_0_1_n_n 1024 rfl rfl).symm f) = ix2 f q := by
    funext ax; apply Fin.ext
    match ax with
    | ⟨0, _⟩ => simp [DotDims.rhsIdx, dot_S512x1024_S1024x1024_S512x1024_1_0_0_1_n_n]; exact cf
    | ⟨1, _⟩ => simp [DotDims.rhsIdx, dot_S512x1024_S1024x1024_S512x1024_1_0_0_1_n_n]; rfl
  rw [l, r]

/-- The block stored at the first half is zero everywhere. -/
theorem zeros_apply (i : S512x1024.Idx) : k0_pay1 (F := Ideal) i = 0 := by
  unfold k0_pay1
  rw [shapeCast_self]
  show Ideal.ofBits .f32 0x00000000#32 = 0
  exact Ideal.ofBits_zero_f32

/-- Entry `(p, q)` of the accumulator after a step: what it held plus the half's product. -/
theorem step_apply (X : Vec Ideal S512x1024 .f32) (T : Vec Ideal S1x1024 .f32) (acc : Vec Ideal S512x1024 .f32)
    (W : Vec Ideal S1024x1024 .f32) (p : Fin 512) (q : Fin 1024) :
    k0_pay2 X T acc W (ix2 p q)
      = acc (ix2 p q) + ∑ f : Fin 1024, X (ix2 p f) * T (ix2 (0 : Fin 1) f) * W (ix2 f q) := by
  unfold k0_pay2
  rw [shapeCast_self, addf_apply, row_column_product]
  refine congrArg (acc (ix2 p q) + ·) (Finset.sum_congr rfl fun f _ => ?_)
  rw [mulf_apply, shapeCast_self, shapeCast_self, broadcastTo_1b_ab_apply, shapeCast_self]

/-- Entry `(p, q)` of the result block: the accumulator plus the bias of column `q`. -/
theorem result_apply (acc : Vec Ideal S512x1024 .f32) (B : Vec Ideal S1x1024 .f32) (p : Fin 512) (q : Fin 1024) :
    k0_pay3 acc B (ix2 p q) = acc (ix2 p q) + B (ix2 (0 : Fin 1) q) := by
  unfold k0_pay3
  rw [addf_apply, broadcastTo_1b_ab_apply, shapeCast_self]

/-- The result block after both halves is the head's block. `X0`, `T0`, `W0` are the first-half blocks (rows
    `base …` of `x` at the first 1024 features, `θ` there, `γ` transposed there), `X1`, `T1`, `W1` the second-half
    ones, `B` reads `b`: entry `(p, q)` of the result is the head at `(base + p, q)`. -/
theorem two_halves_eq_head (X0 X1 : Vec Ideal S512x1024 .f32) (T0 T1 : Vec Ideal S1x1024 .f32)
    (W0 W1 : Vec Ideal S1024x1024 .f32) (B : Vec Ideal S1x1024 .f32)
    (x : S8192x2048.Idx → EReal) (θ : S2048.Idx → EReal) (γ : S1024x2048.Idx → EReal) (b : S1024.Idx → EReal) (base : ℕ)
    (hX0 : ∀ (p : Fin 512) (f : Fin 1024) (r : Fin 8192), r.val = base + p.val →
      X0 (ix2 p f) = x (ix2 r (Cert.ModLinear.lo f)))
    (hX1 : ∀ (p : Fin 512) (f : Fin 1024) (r : Fin 8192), r.val = base + p.val →
      X1 (ix2 p f) = x (ix2 r (Cert.ModLinear.hi f)))
    (hT0 : ∀ f : Fin 1024, T0 (ix2 (0 : Fin 1) f) = θ (ix1 (Cert.ModLinear.lo f)))
    (hT1 : ∀ f : Fin 1024, T1 (ix2 (0 : Fin 1) f) = θ (ix1 (Cert.ModLinear.hi f)))
    (hW0 : ∀ (f : Fin 1024) (q : Fin 1024), W0 (ix2 f q) = γ (ix2 q (Cert.ModLinear.lo f)))
    (hW1 : ∀ (f : Fin 1024) (q : Fin 1024), W1 (ix2 f q) = γ (ix2 q (Cert.ModLinear.hi f)))
    (hB : ∀ q : Fin 1024, B (ix2 (0 : Fin 1) q) = b (ix1 q))
    (p : Fin 512) (q : Fin 1024) (r : Fin 8192) (hr : r.val = base + p.val) :
    k0_pay3 (k0_pay2 X1 T1 (k0_pay2 X0 T0 (k0_pay1 (F := Ideal)) W0) W1) B (ix2 p q) = Cert.ModLinear.head x θ γ b (ix2 r q) := by
  rw [result_apply, step_apply, step_apply, zeros_apply, hB q]
  show _ = (∑ f : Fin 2048, x (ix2 r f) * θ (ix1 f) * γ (ix2 q f)) + b (ix1 q)
  rw [← Cert.ModLinear.two_steps (fun f => x (ix2 r f) * θ (ix1 f) * γ (ix2 q f)) (b (ix1 q))]
  refine congrArg₂ (fun u v => ((0 + u) + v) + b (ix1 q)) (Finset.sum_congr rfl fun f _ => ?_)
    (Finset.sum_congr rfl fun f _ => ?_)
  · rw [hX0 p f r hr, hT0 f, hW0 f q]
  · rw [hX1 p f r hr, hT1 f, hW1 f q]

end Cert.ReferenceIdeal.Entry

end
-- ==== Proof.ReferenceArrays.lean ====
/-
  The four arrays as the reference's region finds them.

  Before the region the reference transposes `γ`, pads each array by zero on every side, which changes nothing
  (`Cert.LibPadNone.pad_none`), and views the scale vector and the bias vector as one-row matrices. So the region's
  batch array is `x`, its weight array at (feature `f`, task `q`) reads `γ (q, f)`, the one row of its scale array
  reads `θ` and the one row of its bias array `b`.
-/
import proofs.«163073_g2000103749768661_pallasbulk_655_25_alg».proof.Proof.Gen.ReferenceIdeal.Frame
import proofs.«163073_g2000103749768661_pallasbulk_655_25_alg».proof.Proof.LibPadNone
import Idealize.ShloMosaic.Lib.StableHlo.Run
import Idealize.ShloMosaic.Lib.ValueLayout

noncomputable section

namespace Cert.ReferenceIdeal.Arrays

open Cert.ReferenceIdeal Cert.ReferenceIdeal.Gen Idealize.ShloMosaic Idealize.ShloMosaic.ValueIdx
open Idealize.ShloMosaic.TcCoe Idealize.SL.Sem Cert.LibPadNone

variable {F : FTy → Type} [FloatOps F] (m : (ℓ : Loc nD τ sig) → Buf (Elt F) ℓ)

/-- The batch array the region reads is `x`. -/
theorem batch_found (c : Dev nD) :
    (V m c main_v0 : S8192x2048.Idx → Elt F .f32) = m ((c : Thread nD τ).loc main_arg0) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact pad_none (s := S8192x2048) (![0, 0]) (![0, 0]) (![0, 0]) (by decide) (by decide) _ _ pads_S8192x2048_S8192x2048_000_000 h_S_

/-- The weight array the region reads is `γ` transposed: at (feature `f`, task `q`) it reads `γ (q, f)`. -/
theorem weights_found (c : Dev nD) (f : Fin 2048) (q : Fin 1024) :
    (V m c main_v2 : S2048x1024.Idx → Elt F .f32) (ix2 f q) = m ((c : Thread nD τ).loc main_arg2) (ix2 q f) := by
  have e : (V m c main_v2 : S2048x1024.Idx → Elt F .f32)
      = transpose S2048x1024 [1, 0] (m ((c : Thread nD τ).loc main_arg2) : S1024x2048.Idx → Elt F .f32)
          transposes_S1024x2048_S2048x1024_1_0 := by
    dsimp only [V]
    simp only [hostOps0, hostOps0_1, hostOps0_2, hostOps0_3, hostOps0_4, hostOps0_5, hostOps0_6, hostOps0_7, hostOps0_8,
    List.flatten_cons, List.flatten_nil, List.append_nil, List.cons_append, List.nil_append]
    after_results
    exact pad_none (s := S2048x1024) (![0, 0]) (![0, 0]) (![0, 0]) (by decide) (by decide) _ _ pads_S2048x1024_S2048x1024_000_000 h_S_
  rw [e, transpose_ix2_apply]

/-- The one row of the scale array the region reads is `θ`. -/
theorem scale_found (c : Dev nD) (f : Fin 2048) :
    (V m c main_v4 : S1x2048.Idx → Elt F .f32) (ix2 (0 : Fin 1) f) = m ((c : Thread nD τ).loc main_arg1) (ix1 f) := by
  have e : (V m c main_v4 : S1x2048.Idx → Elt F .f32)
      = shapeCast S1x2048 (m ((c : Thread nD τ).loc main_arg1) : S2048.Idx → Elt F .f32) shapeCasts_S2048_S1x2048 := by
    dsimp only [V]
    simp only [hostOps0, hostOps0_1, hostOps0_2, hostOps0_3, hostOps0_4, hostOps0_5, hostOps0_6, hostOps0_7, hostOps0_8,
    List.flatten_cons, List.flatten_nil, List.append_nil, List.cons_append, List.nil_append]
    after_results
    exact congrArg (fun y => shapeCast S1x2048 y shapeCasts_S2048_S1x2048)
      (pad_none (s := S2048) (![0]) (![0]) (![0]) (by decide) (by decide) (m ((c : Thread nD τ).loc main_arg1)) _
        pads_S2048_S2048_000 h_S_)
  rw [e, shapeCast_a_1a_apply]

/-- The one row of the bias array the region reads is `b`. -/
theorem bias_found (c : Dev nD) (q : Fin 1024) :
    (V m c main_v6 : S1x1024.Idx → Elt F .f32) (ix2 (0 : Fin 1) q) = m ((c : Thread nD τ).loc main_arg3) (ix1 q) := by
  have e : (V m c main_v6 : S1x1024.Idx → Elt F .f32)
      = shapeCast S1x1024 (m ((c : Thread nD τ).loc main_arg3) : S1024.Idx → Elt F .f32) shapeCasts_S1024_S1x1024 := by
    dsimp only [V]
    simp only [hostOps0, hostOps0_1, hostOps0_2, hostOps0_3, hostOps0_4, hostOps0_5, hostOps0_6, hostOps0_7, hostOps0_8,
    List.flatten_cons, List.flatten_nil, List.append_nil, List.cons_append, List.nil_append]
    after_results
    exact congrArg (fun y => shapeCast S1x1024 y shapeCasts_S1024_S1x1024)
      (pad_none (s := S1024) (![0]) (![0]) (![0]) (by decide) (by decide) (m ((c : Thread nD τ).loc main_arg3)) _
        pads_S1024_S1024_000 h_S_)
  rw [e, shapeCast_a_1a_apply]

end Cert.ReferenceIdeal.Arrays

end
-- ==== Proof.ReferencePieces.lean ====
/-
  What the reference's body leaves behind at a grid point, as the blocks it computed.

  The reference's grid walks the feature halves innermost. At a first-half point the body clears its accumulator and
  adds the half's product: the accumulator ends at one step from the zero block (`acc_first`), and nothing is stored
  into the result's buffer. At a second-half point it adds the half's product to what the point before left in the
  accumulator (`acc_next`) and stores that sum plus the bias into the result's buffer (`out_last`). Each of the
  three is one whole-buffer store, so the buffer holds exactly the stored block; the loads read whole buffers, and a
  load of the accumulator after a store reads the block just stored. All three hold for any float values.
-/
import proofs.«163073_g2000103749768661_pallasbulk_655_25_alg».proof.Proof.Gen.ReferenceIdeal.Frame
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.SL.Sem

variable {F : FTy → Type} [FloatOps F]

/-- The zero offsets of a whole-buffer access. -/
theorem hz : (![0, 0] : Fin 2 → Nat) = fun _ => 0 := funext fun a => by fin_cases a <;> rfl

/-- After a first-half point the accumulator holds one step from the zero block. -/
theorem acc_first (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : cond0_0 i) (hc1 : ¬cond0_1 i)
    (x0 : Vec F S512x1024 .f32) (x1 : Vec F S1x1024 .f32) (x2 : Vec F S1024x1024 .f32) (x3 : Vec F S1x1024 .f32) :
    sout0_A_0 c i a2 h2 a3 h3 a4 h4 a5 h5 a6 h6 a7 h7 hc0 hc1 x0 x1 x2 x3 = k0_pay2 x0 x1 k0_pay1 x2 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, h2.read_unread, h3.read_unread, h4.read_unread, View.ld_unit_zero (S := S512x1024) hz,
    View.ld_unit_zero (S := S1x1024) hz, View.ld_unit_zero (S := S1024x1024) hz]

/-- After a second-half point the accumulator holds one step from what the point before left in it (`xs0`). -/
theorem acc_next (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : ¬cond0_0 i) (hc1 : cond0_1 i)
    (x0 : Vec F S512x1024 .f32) (x1 : Vec F S1x1024 .f32) (x2 : Vec F S1024x1024 .f32) (x3 : Vec F S1x1024 .f32)
    (xs0 : Vec F S512x1024 .f32) :
    sout0_B_0 c i a2 h2 a3 h3 a4 h4 a5 h5 a6 h6 a7 h7 hc0 hc1 x0 x1 x2 x3 xs0 = k0_pay2 x0 x1 xs0 x2 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero (S := S512x1024) hz]
  simp only [View.readAt_eq_ld, h2.read_unread, h3.read_unread, h4.read_unread, h7.read_unread,
    View.ld_unit_zero (S := S512x1024) hz, View.ld_unit_zero (S := S1x1024) hz, View.ld_unit_zero (S := S1024x1024) hz]

/-- After a second-half point the result's buffer holds that accumulator plus the bias. -/
theorem out_last (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : ¬cond0_0 i) (hc1 : cond0_1 i)
    (x0 : Vec F S512x1024 .f32) (x1 : Vec F S1x1024 .f32) (x2 : Vec F S1024x1024 .f32) (x3 : Vec F S1x1024 .f32)
    (xs0 : Vec F S512x1024 .f32) :
    out0_B_4 c i a2 h2 a3 h3 a4 h4 a5 h5 a6 h6 a7 h7 hc0 hc1 x0 x1 x2 x3 xs0 = k0_pay3 (k0_pay2 x0 x1 xs0 x2) x3 := by
  unfold out0_B_4
  rw [View.read_writes_eq_canon _ _ _ (cover0_B_4 c i a2 h2 a3 h3 a4 h4 a5 h5 a6 h6 a7 h7 hc0 hc1 x0 x1 x2 x3 xs0)]
  unfold kernelRun0_B
  dsimp only
  sl_unfold_words
  rw [View.canon_unit_zero (S := S512x1024) hz, View.readCov_unit_zero (S := S512x1024) _ hz]
  simp only [View.readAt_eq_ld, h2.read_unread, h3.read_unread, h4.read_unread, h5.read_unread, h7.read_unread,
    View.ld_unit_zero (S := S512x1024) hz, View.ld_unit_zero (S := S1x1024) hz, View.ld_unit_zero (S := S1024x1024) hz]

end Cert.ReferenceIdeal.Pieces

end
-- ==== Proof.ReferenceValue.lean ====
/-
  The reference's result array is the head of its four arguments.

  The grid has 32 points, the feature half innermost: point `t` works on batch rows `512 (t / 2) …` and on feature
  half `t % 2`. It reads that block of `x`, that half of the scale row, those 1024 rows of `γ` transposed and the bias
  row. Only the odd points write the result back, each its block of rows `512 (t / 2) …`. At an odd point `t` the
  written block is: the accumulator left by the even point `t − 1` (one step from zero over the first half), one more
  step over the second half, plus the bias (`Cert.ReferenceIdeal.Pieces`). By
  `Cert.ReferenceIdeal.Entry.two_halves_eq_head` that is the head's block of those rows (`flushed_eq`). Every row of
  the result lies in the block of the odd point `2 (row / 512) + 1` (`covered`), so after the run the whole result
  array is the head (`final`, `run`).
-/
import proofs.«163073_g2000103749768661_pallasbulk_655_25_alg».proof.Proof.Gen.ReferenceIdeal.Value
import proofs.«163073_g2000103749768661_pallasbulk_655_25_alg».proof.Proof.ReferenceEntry
import proofs.«163073_g2000103749768661_pallasbulk_655_25_alg».proof.Proof.ReferenceArrays
import proofs.«163073_g2000103749768661_pallasbulk_655_25_alg».proof.Proof.ReferencePieces
import proofs.«163073_g2000103749768661_pallasbulk_655_25_alg».proof.Proof.ModLinear

noncomputable section

namespace Cert.ReferenceIdeal.Result

open Cert.ReferenceIdeal Cert.ReferenceIdeal.Gen Idealize.ShloMosaic Idealize.ShloMosaic.ValueIdx
open Idealize.ShloMosaic.TcCoe Idealize.SL.Sem
open Idealize.ShloMosaic.Pipeline (Dat)
open Cert.ModLinear (lo hi)

variable (m : (ℓ : Loc nD τ sig) → Buf (Elt Ideal) ℓ) (ρ : Dev nD → PrngReg)

/-- The head of the four argument arrays as launched, as contents of the result array. -/
abbrev headOf (c : Dev nD) : Buf (Elt Ideal) ((c : Thread nD τ).loc main_v7) :=
  Cert.ModLinear.head (m ((c : Thread nD τ).loc main_arg0)) (m ((c : Thread nD τ).loc main_arg1))
    (m ((c : Thread nD τ).loc main_arg2)) (m ((c : Thread nD τ).loc main_arg3))

/-- The block indices over the 32 points: point `t` is on row block `t / 2` and feature half `t % 2`. -/
theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val % 2 ∧ win0_2.index t (1 : Fin 2) = 0
    ∧ win0_3.index t (0 : Fin 2) = 0 ∧ win0_3.index t (1 : Fin 2) = 0
    ∧ win0_4.index t (0 : Fin 2) = t.val / 2 ∧ win0_4.index t (1 : Fin 2) = 0 :=
  (by decide +kernel : ∀ t : Fin grid0.N, _)

/-- Entry `(p, f)` of the batch block at point `t` is `x` at row `512 (t / 2) + p`, feature `1024 (t % 2) + f`. -/
theorem batch_block (c : Dev nD) (t : Fin cfg0.N) (p : Fin 512) (f : Fin 1024) (r : Fin 8192) (g : Fin 2048)
    (hr : r.val = 512 * (t.val / 2) + p.val) (hg : g.val = 1024 * (t.val % 2) + f.val) :
    (iblk m c 0 t : Vec Ideal S512x1024 .f32) (ix2 p f) = m ((c : Thread nD τ).loc main_arg0) (ix2 r g) := by
  obtain ⟨e0, e1, -⟩ := idx_facts t
  show V m c main_v0 (((cfg0.win 0).blk t).view.emb (ix2 p f)) = _
  rw [Arrays.batch_found]
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * f.val = g.val; omega

/-- Entry `f` of the scale block at point `t` is `θ` at feature `1024 (t % 2) + f`. -/
theorem scale_block (c : Dev nD) (t : Fin cfg0.N) (f : Fin 1024) (g : Fin 2048) (hg : g.val = 1024 * (t.val % 2) + f.val) :
    (iblk m c 1 t : Vec Ideal S1x1024 .f32) (ix2 (0 : Fin 1) f) = m ((c : Thread nD τ).loc main_arg1) (ix1 g) := by
  obtain ⟨-, -, e2, e3, -⟩ := idx_facts t
  show V m c main_v4 (((cfg0.win 1).blk t).view.emb (ix2 (0 : Fin 1) f)) = _
  rw [← Arrays.scale_found m c g]
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * f.val = g.val; omega

/-- Entry `(f, q)` of the weight block at point `t` is `γ` at task `q`, feature `1024 (t % 2) + f`. -/
theorem weights_block (c : Dev nD) (t : Fin cfg0.N) (f : Fin 1024) (q : Fin 1024) (g : Fin 2048)
    (hg : g.val = 1024 * (t.val % 2) + f.val) :
    (iblk m c 2 t : Vec Ideal S1024x1024 .f32) (ix2 f q) = m ((c : Thread nD τ).loc main_arg2) (ix2 q g) := by
  obtain ⟨-, -, -, -, e4, e5, -⟩ := idx_facts t
  show V m c main_v2 (((cfg0.win 2).blk t).view.emb (ix2 f q)) = _
  rw [← Arrays.weights_found m c g q]
  refine congrArg _ (funext fun a => Fin.ext ?_)
  match a with
  | ⟨0, _⟩ => show win0_2.index t (0 : Fin 2) * 1024 + 1 * f.val = g.val; omega
  | ⟨1, _⟩ => show win0_2.index t (1 : Fin 2) * 1024 + 1 * q.val = q.val; omega

/-- The bias block at any point reads `b`. -/
theorem bias_block (c : Dev nD) (t : Fin cfg0.N) (q : Fin 1024) :
    (iblk m c 3 t : Vec Ideal S1x1024 .f32) (ix2 (0 : Fin 1) q) = m ((c : Thread nD τ).loc main_arg3) (ix1 q) := by
  obtain ⟨-, -, -, -, -, -, e6, e7, -⟩ := idx_facts t
  show V m c main_v6 (((cfg0.win 3).blk t).view.emb (ix2 (0 : Fin 1) q)) = _
  rw [← Arrays.bias_found m c q]
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-- What an odd point `t` writes back is the head's block of rows `512 (t / 2) …`. -/
theorem flushed_eq (c : Dev nD) (t : Fin cfg0.N) (hf : (cfg0.win 4).flush t = true) :
    (dats m 0 c).flushed 4 t = ((cfg0.win 4).blk t).view.read (Elt Ideal) (headOf m c) := by
  have hN : t.val < 32 := lt_of_lt_of_eq t.isLt N_0
  have h1 : t.val % 2 = 1 := (flush0_4 t).mp hf
  have h0 : ¬t.val % 2 = 0 := by omega
  obtain ⟨s, hs⟩ : ∃ s : Fin cfg0.N, s.val = t.val - 1 :=
    ⟨⟨t.val - 1, Nat.lt_of_le_of_lt (Nat.sub_le _ _) t.isLt⟩, rfl⟩
  have hs0 : s.val % 2 = 0 := by omega
  have hs1 : ¬s.val % 2 = 1 := by omega
  have eprev : (outsAt0 m c (t.val - 1) (Nat.lt_of_le_of_lt (Nat.sub_le _ _) t.isLt)).2
      = k0_pay2 (iblk m c 0 s) (iblk m c 1 s) (k0_pay1 (F := Ideal)) (iblk m c 2 s) := by
    have e := congrArg Prod.snd (outsAt0_A m c s hs0 hs1)
    rw [Pieces.acc_first] at e
    have same : ∀ (n n' : ℕ) (h : n < cfg0.N) (h' : n' < cfg0.N), n = n' → outsAt0 m c n h = outsAt0 m c n' h' := by
      intro n n' h h' e; subst e; rfl
    exact (congrArg Prod.snd (same _ _ _ _ hs.symm)).trans e
  rw [Cert.ReferenceIdeal.Value.flushed4_B m c t h0 h1, Pieces.out_last, eprev]
  obtain ⟨-, -, -, -, -, -, -, -, e8, e9⟩ := idx_facts t
  funext j
  obtain ⟨p, q, rfl⟩ : ∃ (p : Fin 512) (q : Fin 1024), j = ix2 p q := ⟨j 0, j 1, eq_ix2 j⟩
  show k0_pay3 (k0_pay2 (iblk m c 0 t) (iblk m c 1 t) (k0_pay2 (iblk m c 0 s) (iblk m c 1 s) (k0_pay1 (F := Ideal))
      (iblk m c 2 s)) (iblk m c 2 t)) (iblk m c 3 t) (ix2 p q)
    = headOf m c (((cfg0.win 4).blk t).view.emb (ix2 p q))
  have hrow : ((cfg0.win 4).blk t).view.emb (ix2 p q) = ix2 (⟨512 * (t.val / 2) + p.val, by omega⟩ : Fin 8192) q := by
    funext a; apply Fin.ext
    match a with
    | ⟨0, _⟩ => show win0_4.index t (0 : Fin 2) * 512 + 1 * p.val = 512 * (t.val / 2) + p.val; omega
    | ⟨1, _⟩ => show win0_4.index t (1 : Fin 2) * 1024 + 1 * q.val = q.val; omega
  rw [hrow]
  exact Entry.two_halves_eq_head (iblk m c 0 s) (iblk m c 0 t) (iblk m c 1 s) (iblk m c 1 t) (iblk m c 2 s)
    (iblk m c 2 t) (iblk m c 3 t)
    (m ((c : Thread nD τ).loc main_arg0)) (m ((c : Thread nD τ).loc main_arg1))
    (m ((c : Thread nD τ).loc main_arg2)) (m ((c : Thread nD τ).loc main_arg3)) (512 * (t.val / 2))
    (fun p f r hr => batch_block m c s p f r (lo f) (by omega) (by show f.val = _; omega))
    (fun p f r hr => batch_block m c t p f r (hi f) (by omega) (by show 1024 + f.val = _; omega))
    (fun f => scale_block m c s f (lo f) (by show f.val = _; omega))
    (fun f => scale_block m c t f (hi f) (by show 1024 + f.val = _; omega))
    (fun f q => weights_block m c s f q (lo f) (by show f.val = _; omega))
    (fun f q => weights_block m c t f q (hi f) (by show 1024 + f.val = _; omega))
    (bias_block m c t) p q _ rfl

/-- An index of the result array is in point `t`'s block iff each coordinate is in the block's range on its axis. -/
theorem mem_blk (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7).slice (win0_4.rect t)).set ↔ _
  rw [View.set_slice_whole, Rect.mem_set_unit]
  exact Iff.rfl

/-- Every index of the result array is in the block of the odd point of its row block. -/
theorem covered (i : S8192x1024.Idx) :
    ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = 2 * ((i 0).val / 512) + 1 :=
    ⟨⟨2 * ((i 0).val / 512) + 1, by rw [show cfg0.N = 32 from N_0]; omega⟩, rfl⟩
  obtain ⟨-, -, -, -, -, -, -, -, e8, e9⟩ := idx_facts t
  refine ⟨t, (flush0_4 t).mpr (by omega), ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- After the run the result array is the head. -/
theorem final (c : Dev nD) : (dats m 0 c).arrAt 4 cfg0.N = headOf m c :=
  (dats m 0 c).arrAt_eq_of_cover 4 (headOf m c) (flushed_eq m c) covered

/-- The run, read: the result array at the head of the arguments, the arguments unchanged. -/
theorem run : θ_run defs (onTc (τ := τ) (main (F := Ideal))) ⟨m, fun _ => 0, ρ⟩ fun r => ∀ c : Dev nD,
      r.2.mem ((c : Thread nD τ).loc main_v7) = headOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.ReferenceIdeal.Value.run_blocks m ρ)

end Cert.ReferenceIdeal.Result

end
-- ==== Proof.lean ====
/-
  A modulated linear head: `out (r, q) = (∑ f, x (r, f) · θ f · γ (q, f)) + b q` for 8192 batch rows, 2048 features
  and 1024 tasks, computed by two programs that tile the work differently.

  The kernel takes 1024 batch rows at a time and contracts all 2048 features in one product (after scaling the rows
  by `θ` and passing both factors through a narrower float format, which over the extended reals changes nothing).
  The reference takes 512 batch rows at a time and walks the features in two halves of 1024, keeping a running sum:
  zero, plus the first half's product, plus the second half's product; then it adds the bias. It also transposes
  `γ` beforehand and multiplies by the transpose, which reads the same entries.

  Over the extended reals both result arrays are the one function `Cert.ModLinear.head` of the four arguments
  (`Cert.KernelIdeal.Result.run`, `Cert.ReferenceIdeal.Result.run`). What joins the two is that a sum over 2048
  features is the sum over the first 1024 plus the sum over the last 1024, and that zero is neutral for addition:
  only associativity, so the claim holds for every input, infinite entries included, and the precondition is never
  opened. The idealized kernel is the kernel's own text read over the extended reals: nothing was rewritten, so
  there is nothing to preserve. Each program's frame (it terminates, faults nowhere, and leaves its arguments as they
  were) is the generated frame of its one pipelined region.
-/
import proofs.«163073_g2000103749768661_pallasbulk_655_25_alg».proof.Defs
import proofs.«163073_g2000103749768661_pallasbulk_655_25_alg».proof.Proof.Gen.Kernel
import proofs.«163073_g2000103749768661_pallasbulk_655_25_alg».proof.Proof.Gen.Kernel.Skeleton
import proofs.«163073_g2000103749768661_pallasbulk_655_25_alg».proof.Proof.Gen.Kernel.Launch
import proofs.«163073_g2000103749768661_pallasbulk_655_25_alg».proof.Proof.Gen.Kernel.Points
import proofs.«163073_g2000103749768661_pallasbulk_655_25_alg».proof.Proof.Gen.Kernel.Frame
import proofs.«163073_g2000103749768661_pallasbulk_655_25_alg».proof.Proof.Gen.KernelIdeal
import proofs.«163073_g2000103749768661_pallasbulk_655_25_alg».proof.Proof.Gen.KernelIdeal.Skeleton
import proofs.«163073_g2000103749768661_pallasbulk_655_25_alg».proof.Proof.Gen.KernelIdeal.Launch
import proofs.«163073_g2000103749768661_pallasbulk_655_25_alg».proof.Proof.Gen.KernelIdeal.Points
import proofs.«163073_g2000103749768661_pallasbulk_655_25_alg».proof.Proof.Gen.KernelIdeal.Frame
import proofs.«163073_g2000103749768661_pallasbulk_655_25_alg».proof.Proof.Gen.ReferenceIdeal
import proofs.«163073_g2000103749768661_pallasbulk_655_25_alg».proof.Proof.Gen.ReferenceIdeal.Skeleton
import proofs.«163073_g2000103749768661_pallasbulk_655_25_alg».proof.Proof.Gen.ReferenceIdeal.Launch
import proofs.«163073_g2000103749768661_pallasbulk_655_25_alg».proof.Proof.Gen.ReferenceIdeal.Points
import proofs.«163073_g2000103749768661_pallasbulk_655_25_alg».proof.Proof.Gen.ReferenceIdeal.Frame
import proofs.«163073_g2000103749768661_pallasbulk_655_25_alg».proof.Proof.Gen.Pre_finite_inputs
import proofs.«163073_g2000103749768661_pallasbulk_655_25_alg».proof.Proof.Gen.KernelIdeal.Value
import proofs.«163073_g2000103749768661_pallasbulk_655_25_alg».proof.Proof.Gen.ReferenceIdeal.Value
import proofs.«163073_g2000103749768661_pallasbulk_655_25_alg».proof.Proof.KernelValue
import proofs.«163073_g2000103749768661_pallasbulk_655_25_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference read over the extended reals. -/
theorem frame_referenceIdeal : Cert.frame_ReferenceIdeal := fun m ρ _ => Cert.ReferenceIdeal.Gen.frame m ρ

/-- Idealizing the kernel rewrote nothing. -/
theorem preserves : Cert.preserves_Kernel_KernelIdeal := trivial

/-- Over the extended reals, from memories that agree on the four arguments, both programs end with the result array
    at the head of those arguments: the kernel's run and the reference's run state the same function, and the
    agreement of the arguments makes the two instances of it equal. -/
theorem algebraic : Cert.algebraic_KernelIdeal_ReferenceIdeal := by
  intro m ρ m' ρ' _ hagree
  refine ⟨fun c => Cert.KernelIdeal.Result.headOf m c, Cert.KernelIdeal.Result.run m ρ, ?_⟩
  refine (θ_run Cert.ReferenceIdeal.defs _ _).mono (fun _ h c => ⟨(h c).1.trans ?_, (h c).2⟩)
    (Cert.ReferenceIdeal.Result.run m' ρ')
  show Cert.ModLinear.head _ _ _ _ = Cert.ModLinear.head _ _ _ _
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
